-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S2048x1024 : Shape := ⟨2, ![2048, 1024]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x4096 .f32) (main_arg1 : FVec F S2048x1024 .f32) (main_arg2 : FVec F S2048x1024 .f32) (main_arg3 : FVec F S2048x2048 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S2048x4096 : Shape := ⟨2, ![2048, 4096]⟩
abbrev S2048x1024 : Shape := ⟨2, ![2048, 1024]⟩
abbrev S2048x2048 : Shape := ⟨2, ![2048, 2048]⟩
abbrev S512x128 : Shape := ⟨2, ![512, 128]⟩
abbrev S2048x128 : Shape := ⟨2, ![2048, 128]⟩
abbrev S512x2048 : Shape := ⟨2, ![512, 2048]⟩
abbrev S128x2048 : Shape := ⟨2, ![128, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S2048x2048, .f32⟩
  | .hbm, ⟨4, _⟩ => ⟨S2048x4096, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x2048, .f32⟩
  | .local _ .vmem, ⟨7, _⟩ => ⟨S512x2048, .f32⟩
  | .local _ .vmem, ⟨8, _⟩ => ⟨S512x128, .f32⟩
  | .local _ .vmem, ⟨9, _⟩ => ⟨S512x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x4096.size a
  hwx0_0 : ∀ i : grid0.Coords, EltTy.bits .f32 = 32 ∨ (Rect.block (s := S2048x4096) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x1024.size a
  hwx0_1 : ∀ i : grid0.Coords, EltTy.bits .f32 = 32 ∨ (Rect.block (s := S2048x1024) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x1024.size a
  hwx0_2 : ∀ i : grid0.Coords, EltTy.bits .f32 = 32 ∨ (Rect.block (s := S2048x1024) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S2048x4096.size a
  hwx0_4 : ∀ i : grid0.Coords, EltTy.bits .f32 = 32 ∨ (Rect.block (s := S2048x4096) S512x128.size (cc0_transform_4 i) (hinb0_4 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S2048x1024 : Shape := ⟨2, ![2048, 1024]⟩
abbrev S2048x2048 : Shape := ⟨2, ![2048, 2048]⟩
abbrev S2048x32x128 : Shape := ⟨3, ![2048, 32, 128]⟩
abbrev S32x2048x128 : Shape := ⟨3, ![32, 2048, 128]⟩
abbrev S2048x8x128 : Shape := ⟨3, ![2048, 8, 128]⟩
abbrev S8x2048x128 : Shape := ⟨3, ![8, 2048, 128]⟩
abbrev S8x4x2048x128 : Shape := ⟨4, ![8, 4, 2048, 128]⟩
abbrev S32x2048x2048 : Shape := ⟨3, ![32, 2048, 2048]⟩
abbrev S_ : Shape := ⟨0, ![]⟩
abbrev S1x2048x2048 : Shape := ⟨3, ![1, 2048, 2048]⟩
abbrev S32x2048 : Shape := ⟨2, ![32, 2048]⟩
abbrev S32x2048x1 : Shape := ⟨3, ![32, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x1024, .f32⟩
  | .hbm, ⟨3, _⟩ => ⟨S2048x2048, .f32⟩
  | .hbm, ⟨4, _⟩ => ⟨S2048x32x128, .f32⟩
  | .hbm, ⟨5, _⟩ => ⟨S32x2048x128, .f32⟩
  | .hbm, ⟨6, _⟩ => ⟨S2048x8x128, .f32⟩
  | .hbm, ⟨7, _⟩ => ⟨S8x2048x128, .f32⟩
  | .hbm, ⟨8, _⟩ => ⟨S2048x8x128, .f32⟩
  | .hbm, ⟨9, _⟩ => ⟨S8x2048x128, .f32⟩
  | .hbm, ⟨10, _⟩ => ⟨S8x4x2048x128, .f32⟩
  | .hbm, ⟨11, _⟩ => ⟨S32x2048x128, .f32⟩
  | .hbm, ⟨12, _⟩ => ⟨S8x4x2048x128, .f32⟩
  | .hbm, ⟨13, _⟩ => ⟨S32x2048x128, .f32⟩
  | .hbm, ⟨14, _⟩ => ⟨S32x2048x2048, .f32⟩
  | .hbm, ⟨15, _⟩ => ⟨S_, .f32⟩
  | .hbm, ⟨16, _⟩ => ⟨S32x2048x2048, .f32⟩
  | .hbm, ⟨17, _⟩ => ⟨S32x2048x2048, .f32⟩
  | .hbm, ⟨18, _⟩ => ⟨S1x2048x2048, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S32x2048x1, .f32⟩
  | .hbm, ⟨27, _⟩ => ⟨S32x2048x2048, .f32⟩
  | .hbm, ⟨28, _⟩ => ⟨S32x2048x2048, .f32⟩
  | .hbm, ⟨29, _⟩ => ⟨S32x2048x2048, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S32x2048x2048, .f32⟩
  | .hbm, ⟨34, _⟩ => ⟨S32x2048x2048, .f32⟩
  | .hbm, ⟨35, _⟩ => ⟨S32x2048x128, .f32⟩
  | .hbm, ⟨36, _⟩ => ⟨S2048x32x128, .f32⟩
  | .hbm, ⟨37, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2048x4096_S2048x32x128 : S2048x4096.ShapeCasts S2048x32x128
  transposes_S2048x32x128_S32x2048x128_1_0_2 : S2048x32x128.Transposes [1, 0, 2] S32x2048x128
  shapeCasts_S2048x1024_S2048x8x128 : S2048x1024.ShapeCasts S2048x8x128
  transposes_S2048x8x128_S8x2048x128_1_0_2 : S2048x8x128.Transposes [1, 0, 2] S8x2048x128
  bcast_S8x2048x128_S8x4x2048x128_0_2_3 : S8x2048x128.BroadcastsInDim S8x4x2048x128 (![0, 2, 3] : Fin 3 → Fin S8x4x2048x128.rank)
  shapeCasts_S8x4x2048x128_S32x2048x128 : S8x4x2048x128.ShapeCasts S32x2048x128
  bcast_S_S32x2048x2048 : S_.BroadcastsInDim S32x2048x2048 (![] : Fin 0 → Fin S32x2048x2048.rank)
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x128_S2048x32x128_1_0_2 : S32x2048x128.Transposes [1, 0, 2] S2048x32x128
  shapeCasts_S2048x32x128_S2048x4096 : S2048x32x128.ShapeCasts S2048x4096
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.AttnSpec.lean ====
/-
  Grouped-query attention over one sequence, as a function of plain coordinates.

  A query row `qrow : Fin 128 → EReal` (one position, one head), the keys of its key/value head
  `kb : Fin 2048 → Fin 128 → EReal`, the additive mask row `mrow : Fin 2048 → EReal` of that position and one column
  `vcol : Fin 2048 → EReal` of the values give the score row `s j = (Σ_e qrow e · kb j e) · c + mrow j`, its top
  `T = max(-∞, max_j s j)` (the maximum folded from `-∞`), the weights `exp (s j - T) / Σ_j' exp (s j' - T)` and the
  output entry `Σ_j weight j · vcol j`. Everything is read on the extended reals with the exact operations; the
  scale `c` and `-∞` stay the binary words both programs carry, so neither is ever evaluated.

  The array form: entry `(r, 128·h + d)` of the result is that output for position `r`, query head `h` (columns
  `128·h …` of `q`), key/value head `h / 4` (columns `128·(h/4) …` of `k` and `v`) and value column `d`.
-/
import Idealize.ShloMosaic.PureOps.Ideal
import Idealize.ShloMosaic.Lib.ValueIdx

noncomputable section

open scoped BigOperators

namespace Cert.Attn

open Idealize.ShloMosaic Idealize.ShloMosaic.ValueIdx

/-- The scale both programs multiply the scores by, as the word they carry. -/
abbrev scaleW : EReal := Ideal.ofBits .f32 0x3DB504F3#32

/-- The word of `-∞` both maxima start from. -/
abbrev negInfW : EReal := Ideal.ofBits .f32 0xFF800000#32

/-- The top of a score row: the maximum, folded from `-∞`, and once more against `-∞`. -/
def rowTop {n : ℕ} (s : Fin n → EReal) : EReal :=
  max negInfW ((Finset.univ : Finset (Fin n)).fold max negInfW s)

/-- The shifted exponential of entry `j` of a score row. -/
def rowExp {n : ℕ} (s : Fin n → EReal) (j : Fin n) : EReal := Ideal.exp (s j - rowTop s)

/-- The softmax weight of entry `j`: its shifted exponential over the row's sum of them. -/
def rowWeight {n : ℕ} (s : Fin n → EReal) (j : Fin n) : EReal :=
  Ideal.div (rowExp s j) (∑ j' : Fin n, rowExp s j')

/-- The score of key position `j` for one query row: the scaled inner product plus the mask. -/
def rowScore (qrow : Fin 128 → EReal) (kb : Fin 2048 → Fin 128 → EReal) (mrow : Fin 2048 → EReal) (j : Fin 2048) : EReal :=
  (∑ e : Fin 128, qrow e * kb j e) * scaleW + mrow j

/-- One output entry: the weights of the score row against one column of the values. -/
def attnRow (qrow : Fin 128 → EReal) (kb : Fin 2048 → Fin 128 → EReal) (vcol : Fin 2048 → EReal) (mrow : Fin 2048 → EReal) : EReal :=
  ∑ j : Fin 2048, rowWeight (rowScore qrow kb mrow) j * vcol j

/-- Column `128·h + e` of the queries: feature `e` of query head `h`. -/
def colQ (h : Fin 32) (e : Fin 128) : Fin 4096 := ⟨128 * h.val + e.val, by have := h.isLt; have := e.isLt; omega⟩

/-- Column `128·(h/4) + e` of the keys and values: feature `e` of the key/value head that query head `h` shares. -/
def colKV (h : Fin 32) (e : Fin 128) : Fin 1024 := ⟨128 * (h.val / 4) + e.val, by have := h.isLt; have := e.isLt; omega⟩

/-- Entry `(r, 128·h + d)` of the attention output, from the four whole arrays. -/
def headOut (q : (⟨2, ![2048, 4096]⟩ : Shape).Idx → EReal) (k v : (⟨2, ![2048, 1024]⟩ : Shape).Idx → EReal)
    (mask : (⟨2, ![2048, 2048]⟩ : Shape).Idx → EReal) (r : Fin 2048) (h : Fin 32) (d : Fin 128) : EReal :=
  attnRow (fun e => q (ix2 r (colQ h e))) (fun j e => k (ix2 j (colKV h e))) (fun j => v (ix2 j (colKV h d)))
    (fun j => mask (ix2 r j))

/-- The head of a column of the `[2048, 4096]` result. -/
def headOf (c : Fin 4096) : Fin 32 := ⟨c.val / 128, by have := c.isLt; omega⟩

/-- The feature of a column of the `[2048, 4096]` result within its head. -/
def featOf (c : Fin 4096) : Fin 128 := ⟨c.val % 128, Nat.mod_lt _ (by decide)⟩

/-- The whole result array: entry `(r, c)` is the output of position `r`, head `c / 128`, value column `c % 128`. -/
def G (q : (⟨2, ![2048, 4096]⟩ : Shape).Idx → EReal) (k v : (⟨2, ![2048, 1024]⟩ : Shape).Idx → EReal)
    (mask : (⟨2, ![2048, 2048]⟩ : Shape).Idx → EReal) : (⟨2, ![2048, 4096]⟩ : Shape).Idx → EReal :=
  fun i => headOut q k v mask (i 0) (headOf (i 1)) (featOf (i 1))

theorem colQ_headOf_featOf (c : Fin 4096) : colQ (headOf c) (featOf c) = c :=
  Fin.ext (by show 128 * (c.val / 128) + c.val % 128 = c.val; omega)

end Cert.Attn

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.AttnBody.lean ====
/-
  The kernel body's value, entry by entry.

  At one grid point the body holds a block of 512 query rows of one head (`x0`), the 2048 keys (`x1`) and values
  (`x2`) of the head's key/value group, and the 512 mask rows (`x3`). What it stores at `(p, d)` is the attention
  output of query row `p` against value column `d`: the scores are the product of the query block with the transposed
  keys, scaled, plus the mask; a row's top is its maximum folded from `-∞`; the weights are the shifted exponentials
  over their row sum; the result is the product of the weights with the values. Narrowing to bf16 before each product
  is the identity on the extended reals.
-/
import proofs.«152772_j39883066311013_1_alg».proof.Proof.Gen.KernelIdeal.Skeleton
import proofs.«152772_j39883066311013_1_alg».proof.Proof.AttnSpec
import proofs.«152772_j39883066311013_1_alg».proof.Proof.LibColumn
import proofs.«152772_j39883066311013_1_alg».proof.Proof.LibDot
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.Attn

/-- A reduced index `p` with coordinate `j` put back on the reduced (second) axis is `(p, j)`. -/
theorem lift_row (h : S512x2048.Reduces [1] S512) (p : Fin 512) (j : Fin 2048) : h.lift (ix1 p) j = ix2 p j :=
  funext fun a => Fin.ext (by match a with | ⟨0, _⟩ => rfl | ⟨1, _⟩ => rfl)

/-! ## The stages of the body -/

/-- The scores of the block: queries times transposed keys, scaled, plus the mask. -/
def scoresB (x0 : Vec Ideal S512x128 .f32) (x1 : Vec Ideal S2048x128 .f32) (x3 : Vec Ideal S512x2048 .f32) : FVec Ideal S512x2048 .f32 :=
  addf (mulf (matmul dot_S512x128_S128x2048_S512x2048_1_0_0_1_n_n none (truncf .bf16 x0 bitsLt_bf16_f32)
    (transpose S128x2048 [1, 0] (truncf .bf16 x1 bitsLt_bf16_f32) transposes_S2048x128_p1_0_S128x2048)
    (constant S512x2048 .f32 0x00000000#32)) (broadcast S512x2048 (Scalar.ofBits .f32 0x3DB504F3#32))) x3

/-- The maximum of each score row, folded from `-∞`. -/
def rowMaxB (s : FVec Ideal S512x2048 .f32) : FVec Ideal S512 .f32 :=
  multiReduction .maximumf [1] S512 s 0xFF800000#32 reduces_S512x2048_S512 (.inl rfl) rfl

/-- The top of each score row: that maximum, once more against `-∞`. -/
def topB (s : FVec Ideal S512x2048 .f32) : FVec Ideal S512 .f32 :=
  maximumf (broadcast S512 (Scalar.ofBits .f32 0xFF800000#32)) (rowMaxB s)

/-- The shifted exponentials. -/
def expB (s : FVec Ideal S512x2048 .f32) : FVec Ideal S512x2048 .f32 :=
  exp (subf s (broadcastTo S512x2048 (shapeCast S512x1 (topB s) shapeCasts_S512_S512x1) broadcasts_S512x1_S512x2048))

/-- Their row sums. -/
def denB (s : FVec Ideal S512x2048 .f32) : FVec Ideal S512 .f32 :=
  multiReduction .add [1] S512 (expB s) 0x00000000#32 reduces_S512x2048_S512 (.inl rfl) rfl

/-- The weights. -/
def probB (s : FVec Ideal S512x2048 .f32) : FVec Ideal S512x2048 .f32 :=
  divf (expB s) (broadcastTo S512x2048 (shapeCast S512x1 (denB s) shapeCasts_S512_S512x1) broadcasts_S512x1_S512x2048)

/-- The payload is the weights times the values. -/
theorem pay_eq (x0 : Vec Ideal S512x128 .f32) (x1 : Vec Ideal S2048x128 .f32) (x3 : Vec Ideal S512x2048 .f32) (x2 : Vec Ideal S2048x128 .f32) :
    k0_pay1 (F := Ideal) x0 x1 x3 x2 = matmul dot_S512x2048_S2048x128_S512x128_1_0_0_1_n_n none
      (truncf .bf16 (probB (scoresB x0 x1 x3)) bitsLt_bf16_f32) (truncf .bf16 x2 bitsLt_bf16_f32) (constant S512x128 .f32 0x00000000#32) := rfl

/-! ## Each stage at an entry -/

theorem scoresB_apply (x0 : Vec Ideal S512x128 .f32) (x1 : Vec Ideal S2048x128 .f32) (x3 : Vec Ideal S512x2048 .f32) (p : Fin 512) (j : Fin 2048) :
    scoresB x0 x1 x3 (ix2 p j) = rowScore (fun e => x0 (ix2 p e)) (fun j e => x1 (ix2 j e)) (fun j => x3 (ix2 p j)) j := by
  have hm : matmul (F := Ideal) dot_S512x128_S128x2048_S512x2048_1_0_0_1_n_n none (truncf .bf16 x0 bitsLt_bf16_f32)
      (transpose S128x2048 [1, 0] (truncf .bf16 x1 bitsLt_bf16_f32) transposes_S2048x128_p1_0_S128x2048)
      (constant S512x2048 .f32 0x00000000#32) (ix2 p j) = ∑ e : Fin 128, x0 (ix2 p e) * x1 (ix2 j e) := by
    refine (Ideal.matmul_constant_zero_apply dot_S512x128_S128x2048_S512x2048_1_0_0_1_n_n none _ _ (ix2 p j)).trans ?_
    refine (PlainDot.sum_eq dot_S512x128_S128x2048_S512x2048_1_0_0_1_n_n rfl rfl rfl rfl rfl rfl _ _ p j).trans ?_
    refine Finset.sum_congr rfl fun e _ => ?_
    refine congrArg (x0 (ix2 p e) * ·) ?_
    exact transpose_apply [1, 0] _ transposes_S2048x128_p1_0_S128x2048 (ix2 e j) (ix2 j e) (fun b => match b with
      | ⟨0, _⟩ => rfl
      | ⟨1, _⟩ => rfl)
  show _ * Ideal.ofBits .f32 0x3DB504F3#32 + x3 (ix2 p j) = _
  rw [hm]
  rfl

theorem rowMaxB_apply (s : FVec Ideal S512x2048 .f32) (p : Fin 512) :
    rowMaxB s (ix1 p) = (Finset.univ : Finset (Fin 2048)).fold max negInfW (fun j => s (ix2 p j)) := by
  refine (Ideal.multiReduction_maximumf_single s 0xFF800000#32 reduces_S512x2048_S512 (.inl rfl) rfl (ix1 p)).trans ?_
  exact congrArg (fun f => (Finset.univ : Finset (Fin 2048)).fold max negInfW f)
    (funext fun j => congrArg s (lift_row reduces_S512x2048_S512 p j))

theorem topB_apply (s : FVec Ideal S512x2048 .f32) (p : Fin 512) : topB s (ix1 p) = rowTop (fun j => s (ix2 p j)) := by
  unfold topB rowTop
  rw [maximumf_apply, broadcast_apply, rowMaxB_apply]
  rfl

theorem expB_apply (s : FVec Ideal S512x2048 .f32) (p : Fin 512) (j : Fin 2048) :
    expB s (ix2 p j) = rowExp (fun j => s (ix2 p j)) j := by
  show Ideal.exp (s (ix2 p j) - broadcastTo S512x2048 (shapeCast S512x1 (topB s) shapeCasts_S512_S512x1) broadcasts_S512x1_S512x2048 (ix2 p j)) = _
  rw [Cert.LibColumn.broadcastTo_a1_ab_apply, Cert.LibColumn.shapeCast_a_a1_apply, topB_apply]
  rfl

theorem denB_apply (s : FVec Ideal S512x2048 .f32) (p : Fin 512) :
    denB s (ix1 p) = ∑ j : Fin 2048, rowExp (fun j => s (ix2 p j)) j := by
  refine (Ideal.multiReduction_add_single (expB s) 0x00000000#32 reduces_S512x2048_S512 (.inl rfl) rfl (ix1 p)).trans ?_
  refine Finset.sum_congr rfl fun j _ => ?_
  exact (congrArg (expB s) (lift_row reduces_S512x2048_S512 p j)).trans (expB_apply s p j)

theorem probB_apply (s : FVec Ideal S512x2048 .f32) (p : Fin 512) (j : Fin 2048) :
    probB s (ix2 p j) = rowWeight (fun j => s (ix2 p j)) j := by
  show Ideal.div (expB s (ix2 p j)) (broadcastTo S512x2048 (shapeCast S512x1 (denB s) shapeCasts_S512_S512x1) broadcasts_S512x1_S512x2048 (ix2 p j)) = _
  rw [Cert.LibColumn.broadcastTo_a1_ab_apply, Cert.LibColumn.shapeCast_a_a1_apply, denB_apply, expB_apply]
  rfl

/-- What the body stores at `(p, d)`: the attention output of query row `p` of the block against value column `d`. -/
theorem pay_apply (x0 : Vec Ideal S512x128 .f32) (x1 : Vec Ideal S2048x128 .f32) (x3 : Vec Ideal S512x2048 .f32) (x2 : Vec Ideal S2048x128 .f32)
    (p : Fin 512) (d : Fin 128) :
    k0_pay1 (F := Ideal) x0 x1 x3 x2 (ix2 p d)
      = attnRow (fun e => x0 (ix2 p e)) (fun j e => x1 (ix2 j e)) (fun j => x2 (ix2 j d)) (fun j => x3 (ix2 p j)) := by
  rw [pay_eq]
  refine (Ideal.matmul_constant_zero_apply dot_S512x2048_S2048x128_S512x128_1_0_0_1_n_n none _ _ (ix2 p d)).trans ?_
  refine (PlainDot.sum_eq dot_S512x2048_S2048x128_S512x128_1_0_0_1_n_n rfl rfl rfl rfl rfl rfl _ _ p d).trans ?_
  unfold attnRow
  refine Finset.sum_congr rfl fun j _ => ?_
  show probB (scoresB x0 x1 x3) (ix2 p j) * x2 (ix2 j d) = _
  rw [probB_apply]
  have e : (fun j => scoresB x0 x1 x3 (ix2 p j)) = rowScore (fun e => x0 (ix2 p e)) (fun j e => x1 (ix2 j e)) (fun j => x3 (ix2 p j)) :=
    funext fun j => scoresB_apply x0 x1 x3 p j
  rw [e]

end Cert.KernelIdeal.Body

end
-- ==== Proof.AttnBlocks.lean ====
/-
  From the grid's blocks to the whole result array.

  Grid point `(a, b)` — query tile `a` of 4, head `b` of 32 — reads rows `512·a …` and columns `128·b …` of `q`, all
  rows and columns `128·(b/4) …` of `k` and of `v` (four consecutive heads share one key/value head), rows `512·a …`
  of the mask, and writes rows `512·a …`, columns `128·b …` of the result. The entry the body stores at `(p, d)` is
  therefore the attention output `G` at `(512·a + p, 128·b + d)`: position `512·a + p`, head `b`, value column `d`.
  The 4 × 32 blocks tile the `[2048, 4096]` result, so after the run the array is `G` of the four argument arrays.
-/
import proofs.«152772_j39883066311013_1_alg».proof.Proof.Gen.KernelIdeal.Value
import proofs.«152772_j39883066311013_1_alg».proof.Proof.AttnBody
import proofs.«152772_j39883066311013_1_alg».proof.Proof.AttnSpec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Attn Cert.KernelIdeal.Body

/-! ## One point, over plain blocks -/

/-- Blocks `x0 … x3` that are the windows of `q`, `k`, `v` and the mask at tile `A`, head `B` (each read through an
    embedding with the stated coordinates) give, at `(p, d)`, the attention output at the embedded result index. -/
theorem point_eq (q : S2048x4096.Idx → EReal) (k v : S2048x1024.Idx → EReal) (mask : S2048x2048.Idx → EReal)
    (x0 : Vec Ideal S512x128 .f32) (x1 x2 : Vec Ideal S2048x128 .f32) (x3 : Vec Ideal S512x2048 .f32)
    (E0 : S512x128.Idx → S2048x4096.Idx) (E1 E2 : S2048x128.Idx → S2048x1024.Idx) (E3 : S512x2048.Idx → S2048x2048.Idx)
    (E4 : S512x128.Idx → S2048x4096.Idx) (A B : ℕ) (hA : A ≤ 3) (hB : B ≤ 31)
    (h0 : ∀ y, x0 y = q (E0 y)) (h1 : ∀ y, x1 y = k (E1 y)) (h2 : ∀ y, x2 y = v (E2 y)) (h3 : ∀ y, x3 y = mask (E3 y))
    (e00 : ∀ y, (E0 y 0).val = A * 512 + (y 0).val) (e01 : ∀ y, (E0 y 1).val = B * 128 + (y 1).val)
    (e10 : ∀ y, (E1 y 0).val = (y 0).val) (e11 : ∀ y, (E1 y 1).val = B / 4 * 128 + (y 1).val)
    (e20 : ∀ y, (E2 y 0).val = (y 0).val) (e21 : ∀ y, (E2 y 1).val = B / 4 * 128 + (y 1).val)
    (e30 : ∀ y, (E3 y 0).val = A * 512 + (y 0).val) (e31 : ∀ y, (E3 y 1).val = (y 1).val)
    (e40 : ∀ y, (E4 y 0).val = A * 512 + (y 0).val) (e41 : ∀ y, (E4 y 1).val = B * 128 + (y 1).val)
    (p : Fin 512) (d : Fin 128) :
    k0_pay1 (F := Ideal) x0 x1 x3 x2 (ix2 p d) = G q k v mask (E4 (ix2 p d)) := by
  have hp := p.isLt
  have hd := d.isLt
  obtain ⟨r, hr⟩ : ∃ r : Fin 2048, r.val = A * 512 + p.val := ⟨⟨A * 512 + p.val, by omega⟩, rfl⟩
  obtain ⟨cc, hc⟩ : ∃ cc : Fin 4096, cc.val = B * 128 + d.val := ⟨⟨B * 128 + d.val, by omega⟩, rfl⟩
  obtain ⟨hb, hhb⟩ : ∃ hb : Fin 32, hb.val = B := ⟨⟨B, by omega⟩, rfl⟩
  have hE4 : E4 (ix2 p d) = ix2 r cc := funext fun a => Fin.ext (by
    match a with
    | ⟨0, _⟩ => exact (e40 _).trans hr.symm
    | ⟨1, _⟩ => exact (e41 _).trans hc.symm)
  have hH : headOf cc = hb := Fin.ext (by show cc.val / 128 = hb.val; omega)
  have hF : featOf cc = d := Fin.ext (by show cc.val % 128 = d.val; omega)
  rw [hE4, pay_apply]
  show _ = headOut q k v mask r (headOf cc) (featOf cc)
  rw [hH, hF]
  unfold headOut
  have q_eq : (fun e : Fin 128 => x0 (ix2 p e)) = fun e => q (ix2 r (colQ hb e)) := funext fun e => by
    rw [h0]
    refine congrArg q (funext fun a => Fin.ext ?_)
    match a with
    | ⟨0, _⟩ => exact (e00 _).trans hr.symm
    | ⟨1, _⟩ => exact (e01 _).trans (by show B * 128 + e.val = 128 * hb.val + e.val; omega)
  have k_eq : (fun (j : Fin 2048) (e : Fin 128) => x1 (ix2 j e)) = fun j e => k (ix2 j (colKV hb e)) := funext fun j => funext fun e => by
    rw [h1]
    refine congrArg k (funext fun a => Fin.ext ?_)
    match a with
    | ⟨0, _⟩ => exact e10 _
    | ⟨1, _⟩ => exact (e11 _).trans (by show B / 4 * 128 + e.val = 128 * (hb.val / 4) + e.val; rw [hhb]; omega)
  have v_eq : (fun j : Fin 2048 => x2 (ix2 j d)) = fun j => v (ix2 j (colKV hb d)) := funext fun j => by
    rw [h2]
    refine congrArg v (funext fun a => Fin.ext ?_)
    match a with
    | ⟨0, _⟩ => exact e20 _
    | ⟨1, _⟩ => exact (e21 _).trans (by show B / 4 * 128 + d.val = 128 * (hb.val / 4) + d.val; rw [hhb]; omega)
  have m_eq : (fun j : Fin 2048 => x3 (ix2 p j)) = fun j => mask (ix2 r j) := funext fun j => by
    rw [h3]
    refine congrArg mask (funext fun a => Fin.ext ?_)
    match a with
    | ⟨0, _⟩ => exact (e30 _).trans hr.symm
    | ⟨1, _⟩ => exact e31 _
  rw [q_eq, k_eq, v_eq, m_eq]

/-! ## The index maps over the grid -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 128 grid points: the query and mask blocks move with the result's tile,
    the query block with its head, the key and value blocks with a quarter of it; and the ranges of the result's block. -/
theorem idx_facts : ∀ t : Fin cfg0.N, win0_0.index t (0 : Fin 2) = win0_4.index t (0 : Fin 2)
    ∧ win0_0.index t (1 : Fin 2) = win0_4.index t (1 : Fin 2)
    ∧ win0_1.index t (0 : Fin 2) = 0
    ∧ win0_1.index t (1 : Fin 2) = win0_4.index t (1 : Fin 2) / 4
    ∧ win0_2.index t (0 : Fin 2) = 0
    ∧ win0_2.index t (1 : Fin 2) = win0_4.index t (1 : Fin 2) / 4
    ∧ win0_3.index t (0 : Fin 2) = win0_4.index t (0 : Fin 2)
    ∧ win0_3.index t (1 : Fin 2) = 0
    ∧ win0_4.index t (0 : Fin 2) ≤ 3 ∧ win0_4.index t (1 : Fin 2) ≤ 31 :=
  (by decide +kernel : ∀ t : Fin grid0.N, _)

/-- Every tile and head is some point's. -/
theorem idx_onto : ∀ (q0 : Fin 4) (q1 : Fin 32), ∃ t : Fin cfg0.N, win0_4.index t = ![q0.val, q1.val] :=
  (by decide +kernel : ∀ (q0 : Fin 4) (q1 : Fin 32), ∃ t : Fin grid0.N, win0_4.index t = ![q0.val, q1.val])

/-! ## What a point writes back, the cover, the final array -/

/-- What point `t` writes back is block `t` of `G` of the argument arrays as the region finds them. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [Cert.KernelIdeal.Value.flushed4]
  unfold out0_4
  rw [View.canon_unit_zero hz]
  simp only [View.ld_unit_zero (S := S512x128) hz, View.ld_unit_zero (S := S2048x128) hz, View.ld_unit_zero (S := S512x2048) hz]
  obtain ⟨f0, f1, f2, f3, f4, f5, f6, f7, f8, f9⟩ := idx_facts t
  funext y
  obtain ⟨p, d, rfl⟩ : ∃ (p : Fin 512) (d : Fin 128), y = ix2 p d := ⟨y 0, y 1, eq_ix2 y⟩
  show k0_pay1 (F := Ideal) (iblk m c 0 t) (iblk m c 1 t) (iblk m c 3 t) (iblk m c 2 t) (ix2 p d)
    = G (V m c main_arg0) (V m c main_arg1) (V m c main_arg2) (V m c main_arg3) (((cfg0.win 4).blk t).view.emb (ix2 p d))
  exact point_eq (V m c main_arg0) (V m c main_arg1) (V m c main_arg2) (V m c main_arg3)
    (iblk m c 0 t) (iblk m c 1 t) (iblk m c 2 t) (iblk m c 3 t)
    ((cfg0.win 0).blk t).view.emb ((cfg0.win 1).blk t).view.emb ((cfg0.win 2).blk t).view.emb ((cfg0.win 3).blk t).view.emb
    ((cfg0.win 4).blk t).view.emb (win0_4.index t (0 : Fin 2)) (win0_4.index t (1 : Fin 2)) f8 f9
    (fun _ => rfl) (fun _ => rfl) (fun _ => rfl) (fun _ => rfl)
    (fun y => by show win0_0.index t (0 : Fin 2) * 512 + 1 * (y 0).val = win0_4.index t (0 : Fin 2) * 512 + (y 0).val; omega)
    (fun y => by show win0_0.index t (1 : Fin 2) * 128 + 1 * (y 1).val = win0_4.index t (1 : Fin 2) * 128 + (y 1).val; omega)
    (fun y => by show win0_1.index t (0 : Fin 2) * 2048 + 1 * (y 0).val = (y 0).val; omega)
    (fun y => by show win0_1.index t (1 : Fin 2) * 128 + 1 * (y 1).val = win0_4.index t (1 : Fin 2) / 4 * 128 + (y 1).val; omega)
    (fun y => by show win0_2.index t (0 : Fin 2) * 2048 + 1 * (y 0).val = (y 0).val; omega)
    (fun y => by show win0_2.index t (1 : Fin 2) * 128 + 1 * (y 1).val = win0_4.index t (1 : Fin 2) / 4 * 128 + (y 1).val; omega)
    (fun y => by show win0_3.index t (0 : Fin 2) * 512 + 1 * (y 0).val = win0_4.index t (0 : Fin 2) * 512 + (y 0).val; omega)
    (fun y => by show win0_3.index t (1 : Fin 2) * 2048 + 1 * (y 1).val = (y 1).val; omega)
    (fun y => by show win0_4.index t (0 : Fin 2) * 512 + 1 * (y 0).val = win0_4.index t (0 : Fin 2) * 512 + (y 0).val; omega)
    (fun y => by show win0_4.index t (1 : Fin 2) * 128 + 1 * (y 1).val = win0_4.index t (1 : Fin 2) * 128 + (y 1).val; omega)
    p d

/-- An index of the result is in point `t`'s block iff each coordinate is in the block's range on its axis. -/
theorem mem_blk (t : Fin cfg0.N) (i : S2048x4096.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v0).slice (win0_4.rect t)).set ↔ _
  rw [View.set_slice_whole, Rect.mem_set_unit]
  exact Iff.rfl

/-- Every index of the result is in the block of the point of its tile and head. -/
theorem cover (i : S2048x4096.Idx) :
    ∃ t : Fin cfg0.N, (cfg0.win 4).flush t = true ∧ i ∈ ((cfg0.win 4).blk t).view.set := by
  have hi0 : (i 0).val < 2048 := (i 0).isLt
  have hi1 : (i 1).val < 4096 := (i 1).isLt
  obtain ⟨t, ht⟩ := idx_onto ⟨(i 0).val / 512, by omega⟩ ⟨(i 1).val / 128, by omega⟩
  have q0 : win0_4.index t (0 : Fin 2) = (i 0).val / 512 := congrFun ht 0
  have q1 : win0_4.index t (1 : Fin 2) = (i 1).val / 128 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- The result array after the run is `G` of the four argument arrays. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

/-- The kernel's run: every weakly fair execution ends with the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.AttnRef.lean ====
/-
  The reference's result, entry by entry.

  The reference splits the 4096 query columns into 32 heads of 128 and moves the head axis to the front; splits the
  1024 key and value columns into 8 heads and repeats each 4 times along a new axis that it folds into the head
  axis, so that head `h` of the repeated keys is key/value head `h / 4`; takes the batched product over the features,
  scales, adds the mask spread over the heads, normalises each row with the shifted exponentials, takes the batched
  product with the values and moves the heads back into the columns. Stage by stage, at coordinates, this is the
  attention row of `AttnSpec`.
-/
import proofs.«152772_j39883066311013_1_alg».proof.Proof.Gen.ReferenceIdeal.Read
import proofs.«152772_j39883066311013_1_alg».proof.Proof.AttnSpec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (q : (⟨S2048x4096, .f32⟩ : BufTy).Contents (Elt Ideal)) (k v : (⟨S2048x1024, .f32⟩ : BufTy).Contents (Elt Ideal))
  (mask : (⟨S2048x2048, .f32⟩ : BufTy).Contents (Elt Ideal))

/-! ## The heads of the queries, keys and values -/

/-- Head `h`, position `r`, feature `e` of the queries is column `128·h + e` of row `r`. -/
theorem qh_apply (h : Fin 32) (r : Fin 2048) (e : Fin 128) :
    val_main_v1 (F := Ideal) q (ix3 h r e) = q (ix2 r (colQ h e)) := by
  rw [val_main_v1_apply, val_main_v0_apply]
  refine congrArg q (funext fun a => Fin.ext ?_)
  have hh := h.isLt; have he := e.isLt
  match a with
  | ⟨0, _⟩ => show ((r.val * 32 + h.val) * 128 + e.val) / 4096 = r.val; omega
  | ⟨1, _⟩ => show ((r.val * 32 + h.val) * 128 + e.val) % 4096 = 128 * h.val + e.val; omega

/-- A `[2048, 1024]` array split into 8 heads, heads in front, repeated 4 times and folded into 32 heads: head `h`,
    position `j`, feature `e` is column `128·(h/4) + e` of row `j`. -/
theorem kv_index (h : Fin 32) (j : Fin 2048) (e : Fin 128) :
    idx_main_v2 (idx_main_v3 (idx_main_v6 (idx_main_v7 (ix3 h j e)))) = ix2 j (colKV h e) := by
  refine funext fun a => Fin.ext ?_
  have hh := h.isLt; have hj := j.isLt; have he := e.isLt
  have a1 : ((h.val * 2048 + j.val) * 128 + e.val) / 128 = h.val * 2048 + j.val := by omega
  have a2 : (h.val * 2048 + j.val) % 2048 = j.val := by omega
  have a3 : ((h.val * 2048 + j.val) * 128 + e.val) / 1048576 = h.val / 4 := by omega
  have a4 : ((h.val * 2048 + j.val) * 128 + e.val) % 128 = e.val := by omega
  match a with
  | ⟨0, _⟩ =>
    show (((((h.val * 2048 + j.val) * 128 + e.val) / 128 % 2048) * 8 + ((h.val * 2048 + j.val) * 128 + e.val) / 1048576) * 128
      + ((h.val * 2048 + j.val) * 128 + e.val) % 128) / 1024 = j.val
    rw [a1, a2, a3, a4]
    omega
  | ⟨1, _⟩ =>
    show (((((h.val * 2048 + j.val) * 128 + e.val) / 128 % 2048) * 8 + ((h.val * 2048 + j.val) * 128 + e.val) / 1048576) * 128
      + ((h.val * 2048 + j.val) * 128 + e.val) % 128) % 1024 = 128 * (h.val / 4) + e.val
    rw [a1, a2, a3, a4]
    omega

theorem kh_apply (h : Fin 32) (j : Fin 2048) (e : Fin 128) :
    val_main_v7 (F := Ideal) k (ix3 h j e) = k (ix2 j (colKV h e)) := by
  rw [val_main_v7_apply, val_main_v6_apply, val_main_v3_apply, val_main_v2_apply]
  exact congrArg k (kv_index h j e)

theorem vh_apply (h : Fin 32) (j : Fin 2048) (d : Fin 128) :
    val_main_v9 (F := Ideal) v (ix3 h j d) = v (ix2 j (colKV h d)) := by
  rw [val_main_v9_apply, val_main_v8_apply, val_main_v5_apply, val_main_v4_apply]
  exact congrArg v (kv_index h j d)

/-! ## The scores, their tops, the weights -/

/-- The score row of position `r` under head `h`. -/
abbrev sc (h : Fin 32) (r : Fin 2048) : Fin 2048 → EReal :=
  rowScore (fun e => q (ix2 r (colQ h e))) (fun j e => k (ix2 j (colKV h e))) (fun j => mask (ix2 r j))

theorem score_apply (h : Fin 32) (r j : Fin 2048) :
    val_main_v15 (F := Ideal) q k mask (ix3 h r j) = sc q k mask h r j := by
  rw [val_main_v15_apply, val_main_v12_apply, val_main_v10_apply, val_main_v11_apply, val_main_cst_apply, val_main_v14_apply,
    val_main_v13_apply]
  show (∑ e : Fin 128, _ * _) * Ideal.ofBits .f32 0x3DB504F3#32 + mask _ = (∑ e : Fin 128, _ * _) * scaleW + mask _
  have hs : ∀ e : Fin 128, val_main_v1 (F := Ideal) q (lidx_main_v10 (ix3 h r j) e) * val_main_v7 (F := Ideal) k (ridx_main_v10 (ix3 h r j) e)
      = q (ix2 r (colQ h e)) * k (ix2 j (colKV h e)) := fun e => by
    have e1 : lidx_main_v10 (ix3 h r j) e = ix3 h r e :=
      funext fun a => Fin.ext (by match a with | ⟨0, _⟩ => rfl | ⟨1, _⟩ => rfl | ⟨2, _⟩ => rfl)
    have e2 : ridx_main_v10 (ix3 h r j) e = ix3 h j e :=
      funext fun a => Fin.ext (by match a with | ⟨0, _⟩ => rfl | ⟨1, _⟩ => rfl | ⟨2, _⟩ => rfl)
    rw [e1, e2, qh_apply, kh_apply]
  have hm : idx_main_v13 (idx_main_v14 (ix3 h r j)) = ix2 r j :=
    funext fun a => Fin.ext (by match a with | ⟨0, _⟩ => rfl | ⟨1, _⟩ => rfl)
  rw [Finset.sum_congr rfl fun e _ => hs e, hm]

/-- A reduced index `(h, r)` with coordinate `j` put back on the reduced (last) axis is `(h, r, j)`. -/
theorem lift_last (hR : S32x2048x2048.Reduces [2] S32x2048) (h : Fin 32) (r j : Fin 2048) :
    hR.lift (ix2 h r) j = ix3 h r j :=
  funext fun a => Fin.ext (by match a with | ⟨0, _⟩ => rfl | ⟨1, _⟩ => rfl | ⟨2, _⟩ => rfl)

theorem top_apply (h : Fin 32) (r : Fin 2048) :
    val_main_v18 (F := Ideal) q k mask (ix2 h r) = rowTop (sc q k mask h r) := by
  rw [val_main_v18_apply, val_main_v17_apply, val_main_cst_1_apply]
  show max (Ideal.ofBits .f32 0xFF800000#32) (val_main_v16 (F := Ideal) q k mask (ix2 h r)) = _
  unfold rowTop
  refine congrArg (max negInfW) ?_
  unfold val_main_v16
  have hR : S32x2048x2048.Reduces [2] S32x2048 := by decide
  refine (Host.reduce_eq_fold_single FloatOps.maximumf _ _ reducesTo_S32x2048x2048_S32x2048_d2 hR h_S_ (ix2 h r)).trans ?_
  have e : (val_main_v15 (F := Ideal) q k mask ∘ hR.lift (ix2 h r)) = sc q k mask h r := funext fun j => by
    show val_main_v15 (F := Ideal) q k mask (hR.lift (ix2 h r) j) = _
    rw [lift_last hR h r j]
    exact score_apply q k mask h r j
  rw [e]
  rfl

theorem exp_apply (h : Fin 32) (r j : Fin 2048) :
    val_main_v22 (F := Ideal) q k mask (ix3 h r j) = rowExp (sc q k mask h r) j := by
  rw [val_main_v22_apply, val_main_v21_apply, val_main_v20_apply, val_main_v19_apply]
  have e1 : idx_main_v19 (idx_main_v20 (ix3 h r j)) = ix2 h r :=
    funext fun a => Fin.ext (by match a with | ⟨0, _⟩ => rfl | ⟨1, _⟩ => rfl)
  rw [e1, top_apply, score_apply]
  rfl

theorem den_apply (h : Fin 32) (r : Fin 2048) :
    val_main_v23 (F := Ideal) q k mask (ix2 h r) = ∑ j : Fin 2048, rowExp (sc q k mask h r) j := by
  rw [val_main_v23_apply, val_main_cst_2_apply]
  show Ideal.ofBits .f32 0x00000000#32 + _ = _
  rw [Ideal.ofBits_zero_f32, zero_add]
  refine Finset.sum_congr rfl fun j _ => ?_
  have e1 : idx_main_v23 (ix2 h r) j = ix3 h r j :=
    funext fun a => Fin.ext (by match a with | ⟨0, _⟩ => rfl | ⟨1, _⟩ => rfl | ⟨2, _⟩ => rfl)
  rw [e1, exp_apply]

theorem weight_apply (h : Fin 32) (r j : Fin 2048) :
    val_main_v26 (F := Ideal) q k mask (ix3 h r j) = rowWeight (sc q k mask h r) j := by
  rw [val_main_v26_apply, val_main_v25_apply, val_main_v24_apply]
  have e1 : idx_main_v24 (idx_main_v25 (ix3 h r j)) = ix2 h r :=
    funext fun a => Fin.ext (by match a with | ⟨0, _⟩ => rfl | ⟨1, _⟩ => rfl)
  rw [e1, den_apply, exp_apply]
  rfl

/-! ## The result -/

theorem out_apply (h : Fin 32) (r : Fin 2048) (d : Fin 128) :
    val_main_v27 (F := Ideal) q k v mask (ix3 h r d) = headOut q k v mask r h d := by
  rw [val_main_v27_apply]
  unfold headOut attnRow
  refine Finset.sum_congr rfl fun j _ => ?_
  have e1 : lidx_main_v27 (ix3 h r d) j = ix3 h r j :=
    funext fun a => Fin.ext (by match a with | ⟨0, _⟩ => rfl | ⟨1, _⟩ => rfl | ⟨2, _⟩ => rfl)
  have e2 : ridx_main_v27 (ix3 h r d) j = ix3 h j d :=
    funext fun a => Fin.ext (by match a with | ⟨0, _⟩ => rfl | ⟨1, _⟩ => rfl | ⟨2, _⟩ => rfl)
  rw [e1, e2, weight_apply, vh_apply]

/-- The reference's result array is the attention output `G` of its four arguments. -/
theorem ref_eq_G : val_main_v29 (F := Ideal) q k v mask = G q k v mask := by
  funext i
  obtain ⟨r, c, rfl⟩ : ∃ (r : Fin 2048) (c : Fin 4096), i = ix2 r c := ⟨i 0, i 1, eq_ix2 i⟩
  rw [val_main_v29_apply, val_main_v28_apply]
  have e : idx_main_v28 (idx_main_v29 (ix2 r c)) = ix3 (headOf c) r (featOf c) := funext fun a => Fin.ext (by
    have h0 : r.val < 2048 := r.isLt
    have h1 : c.val < 4096 := c.isLt
    match a with
    | ⟨0, _⟩ => show (r.val * 4096 + c.val) / 128 % 32 = c.val / 128; omega
    | ⟨1, _⟩ => show (r.val * 4096 + c.val) / 4096 = r.val; omega
    | ⟨2, _⟩ => show (r.val * 4096 + c.val) % 128 = c.val % 128; omega)
  rw [e]
  exact out_apply q k v mask (headOf c) r (featOf c)

end Cert.ReferenceIdeal.RefValue

end
-- ==== Proof.lean ====
/-
  Grouped-query attention: a tiled kernel against the whole-array formula.

  Inputs: queries `q : [2048, 4096]` (32 heads of 128 features), keys and values `k, v : [2048, 1024]` (8 heads of
  128, each shared by four consecutive query heads) and an additive mask `[2048, 2048]`. For position `r`, head `h`
  and value column `d` both programs compute, on the extended reals,

      s j = (Σ_e q[r, 128h + e] · k[j, 128(h/4) + e]) · c + mask[r, j]
      T   = max(-∞, max_j s j)
      out[r, 128h + d] = Σ_j (exp (s j - T) / Σ_j' exp (s j' - T)) · v[j, 128(h/4) + d]

  with the same scale word `c` and the same operations in the same order, so no algebraic law beyond reading each
  program's text is needed, and the precondition (finite inputs) is never opened.

  The kernel runs a 4 × 32 grid, one block of 512 positions and one head per point; the body's entry is that formula
  (`AttnBody`), block `(a, b)` sits at rows `512a`, columns `128b` of the result, and the blocks tile it
  (`AttnBlocks`). The reference reshapes, transposes and repeats its arguments into a head-major layout, takes two
  batched products around a softmax over the last axis, and lays the heads back into columns; read at an index this is
  the same formula (`AttnRef`). The two narrowings to bf16 in the kernel are the identity on the extended reals, and
  reading the kernel there rewrites none of its operations, so its idealization is its own text.
-/
import proofs.«152772_j39883066311013_1_alg».proof.Defs
import proofs.«152772_j39883066311013_1_alg».proof.Proof.Gen.Kernel
import proofs.«152772_j39883066311013_1_alg».proof.Proof.Gen.Kernel.Skeleton
import proofs.«152772_j39883066311013_1_alg».proof.Proof.Gen.Kernel.Launch
import proofs.«152772_j39883066311013_1_alg».proof.Proof.Gen.Kernel.Points
import proofs.«152772_j39883066311013_1_alg».proof.Proof.Gen.Kernel.Frame
import proofs.«152772_j39883066311013_1_alg».proof.Proof.Gen.KernelIdeal
import proofs.«152772_j39883066311013_1_alg».proof.Proof.Gen.KernelIdeal.Skeleton
import proofs.«152772_j39883066311013_1_alg».proof.Proof.Gen.KernelIdeal.Launch
import proofs.«152772_j39883066311013_1_alg».proof.Proof.Gen.KernelIdeal.Points
import proofs.«152772_j39883066311013_1_alg».proof.Proof.Gen.KernelIdeal.Frame
import proofs.«152772_j39883066311013_1_alg».proof.Proof.Gen.ReferenceIdeal
import proofs.«152772_j39883066311013_1_alg».proof.Proof.Gen.KernelIdeal.Value
import proofs.«152772_j39883066311013_1_alg».proof.Proof.Gen.ReferenceIdeal.Run
import proofs.«152772_j39883066311013_1_alg».proof.Proof.Gen.ReferenceIdeal.Read
import proofs.«152772_j39883066311013_1_alg».proof.Proof.Gen.Pre_finite_inputs
import proofs.«152772_j39883066311013_1_alg».proof.Proof.AttnSpec
import proofs.«152772_j39883066311013_1_alg».proof.Proof.AttnBlocks
import proofs.«152772_j39883066311013_1_alg».proof.Proof.AttnRef
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the four arguments, the kernel's result array and the reference's are both the
    attention output `G` of those arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq_G, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
